-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x20 : Shape := ⟨2, ![64, 20]⟩
abbrev S20 : Shape := ⟨1, ![20]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x20 : S_.BroadcastsInDim S64x20 (![] : Fin 0 → Fin S64x20.rank)
  reducesTo_S64x20_S_d0_1 : S64x20.ReducesTo [0, 1] S_
  bcast_S_S20 : S_.BroadcastsInDim S20 (![] : Fin 0 → Fin S20.rank)
  reducesTo_S20_S_d0 : S20.ReducesTo [0] S_

variable [Facts]

def fn_part2 {F : FTy → Type} [FloatOps F] (main_arg8 : FVec F S64x20 .f32) (main_arg9 : FVec F S20 .f32) (main_v33 : IVec S_ 1) : IVec S_ 1 :=
  let main_v34 : FVec F S64x20 .f32 := Host.absf main_arg8
  let main_cst_12 : FVec F S_ .f32 := constant S_ .f32 0x7F800000#32
  let main_v35 : FVec F S64x20 .f32 := broadcastInDim S64x20 ![] bcast_S_S64x20 main_cst_12
  let main_v36 : IVec S64x20 1 := cmpf .olt main_v34 main_v35
  let main_c_13 : IVec S_ 1 := constantI S_ 1 1#1
  let main_v37 : IVec S_ 1 := (fun x v => Host.reduce IntOp.andi x v reducesTo_S64x20_S_d0_1 h_S_) main_v36 main_c_13
  let main_v38 : IVec S_ 1 := andi main_v33 main_v37
  let main_v39 : FVec F S20 .f32 := Host.absf main_arg9
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  main_v43

def fn_part1 {F : FTy → Type} [FloatOps F] (main_arg5 : FVec F S128x64 .f32) (main_arg6 : FVec F S128x64 .f32) (main_arg7 : FVec F S64 .f32) (main_arg8 : FVec F S64x20 .f32) (main_arg9 : FVec F S20 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x128 .f32) (main_arg3 : FVec F S64x128 .f32) (main_arg4 : FVec F S128 .f32) (main_arg5 : FVec F S128x64 .f32) (main_arg6 : FVec F S128x64 .f32) (main_arg7 : FVec F S64 .f32) (main_arg8 : FVec F S64x20 .f32) (main_arg9 : FVec F S20 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x20 : Shape := ⟨2, ![64, 20]⟩
abbrev S20 : Shape := ⟨1, ![20]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S5000x64 : Shape := ⟨2, ![5000, 64]⟩
abbrev S5000x128 : Shape := ⟨2, ![5000, 128]⟩
abbrev S1x128 : Shape := ⟨2, ![1, 128]⟩
abbrev S1600000x128 : Shape := ⟨2, ![1600000, 128]⟩
abbrev S100000x20 : Shape := ⟨2, ![100000, 20]⟩
abbrev S5000x20 : Shape := ⟨2, ![5000, 20]⟩
abbrev S1x64 : Shape := ⟨2, ![1, 64]⟩
abbrev S1x20 : Shape := ⟨2, ![1, 20]⟩

abbrev nBuf : Space → Nat
  | .hbm => 60
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S64x20, .f32⟩
  | .hbm, ⟨9, _⟩ => ⟨S20, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S100000x20, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S64, .f32⟩
  | .local _ .vmem, ⟨16, _⟩ => ⟨S64x20, .f32⟩
  | .local _ .vmem, ⟨17, _⟩ => ⟨S20, .f32⟩
  | .local _ .vmem, ⟨18, _⟩ => ⟨S5000x20, .f32⟩
  | .local _ .vmem, ⟨19, _⟩ => ⟨S5000x20, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x20 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S20 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x20 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x20_S64x20_0_0 : ∀ a, (![0, 0] : Fin 2 → Nat) a + S64x20.size a ≤ S64x20.size a
  h_S64x20 : 0 < S64x20.numel
  inb_S20_S20_0 : ∀ a, (![0] : Fin 1 → Nat) a + S20.size a ≤ S20.size a
  h_S20 : 0 < S20.numel
  shapeCasts_S20_S1x20 : S20.ShapeCasts S1x20
  broadcasts_S1x20_S5000x20 : S1x20.Broadcasts S5000x20
  inb_S5000x20_S5000x20_0_0 : ∀ a, (![0, 0] : Fin 2 → Nat) a + S5000x20.size a ≤ S5000x20.size a
  h_S5000x20 : 0 < S5000x20.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  dot_S5000x64_S64x20_S5000x20_1_0_0_1_n_n_wf : DotDims.WF S5000x64 S64x20 S5000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x20.size a ≤ S64x20.size a
  hwx1_5 : ∀ i : grid1.Coords, EltTy.bits .f32 = 32 ∨ (Rect.block (s := S64x20) S64x20.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S20.size a ≤ S20.size a
  hwx1_6 : ∀ i : grid1.Coords, EltTy.bits .f32 = 32 ∨ (Rect.block (s := S20) S20.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x20.size a ≤ S100000x20.size a
  hwx1_7 : ∀ i : grid1.Coords, EltTy.bits .f32 = 32 ∨ (Rect.block (s := S100000x20) S5000x20.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x20_S5000x20_1_0_0_1_n_n : DotDims S5000x64 S64x20 S5000x20 where
  lhsContracting := [1]
  rhsContracting := [0]
  lhsNonContracting := [0]
  rhsNonContracting := [1]
  lhsBatch := []
  rhsBatch := []
  wf := dot_S5000x64_S64x20_S5000x20_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x20.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S20.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v39) S5000x20.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x20 : Shape := ⟨2, ![64, 20]⟩
abbrev S20 : Shape := ⟨1, ![20]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩
abbrev S100000x20 : Shape := ⟨2, ![100000, 20]⟩
abbrev S1x20 : Shape := ⟨2, ![1, 20]⟩

abbrev nBuf : Space → Nat
  | .hbm => 80
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S64x20, .f32⟩
  | .hbm, ⟨9, _⟩ => ⟨S20, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S1x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x20, .f32⟩
  | .hbm, ⟨77, _⟩ => ⟨S1x20, .f32⟩
  | .hbm, ⟨78, _⟩ => ⟨S100000x20, .f32⟩
  | .hbm, ⟨79, _⟩ => ⟨S100000x20, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x20_S100000x20_1_0_0_1_n_n_wf : DotDims.WF S100000x64 S64x20 S100000x20 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x20_S100000x20_1_0_0_1_n_n : DotDims S100000x64 S64x20 S100000x20 where
  lhsContracting := [1]
  rhsContracting := [0]
  lhsNonContracting := [0]
  rhsNonContracting := [1]
  lhsBatch := []
  rhsBatch := []
  wf := dot_S100000x64_S64x20_S100000x20_1_0_0_1_n_n_wf

class Facts : Prop extends Facts₀ where

variable [Facts]
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibSageUpdate.lean ====
/-
  The dense update of a mean-aggregating graph layer, and a linear head, on the extended reals.

  A node's new features are max((x·Ws + h·Wn) + b, 0): the node's own row x times one weight matrix, plus its
  neighbourhood row h times another, plus a bias row, rectified. A head is y·Wc + bc. Both are read here entry by
  entry as sums over the contracted axis. The vector unit's spelling (products into a zero accumulator, the bias
  vector cast to one row and broadcast over the rows, a maximum with a splat zero) and the host's spelling
  (general dot products, the bias broadcast in two steps, a maximum with a broadcast zero scalar) are each this one
  function. An entry of the update depends on row r of x and of h only, so the update of a block of rows, with the
  whole weight matrices and bias, is the update of the whole arrays at those rows; likewise the head.
-/
import proofs.«133964_j56530359550767_1_alg».proof.Proof.LibDense

noncomputable section

open scoped BigOperators

namespace Cert.SageUpdate

open Idealize.ShloMosaic Idealize.ShloMosaic.ValueIdx Cert.Dense

variable {M K N C : ℕ}

/-- The update: entry (r, c) is max((Σ_k X(r,k)·Ws(k,c) + Σ_k H(r,k)·Wn(k,c)) + b(c), 0). -/
def upd (X H : Mat M K) (Ws Wn : Mat K N) (b : Row N) : Mat M N :=
  fun i => max ((mm X Ws i + mm H Wn i) + b (ix1 (i 1))) 0

/-- The head: entry (r, c) is Σ_k Y(r,k)·Wc(k,c) + bc(c). -/
def head (Y : Mat M N) (Wc : Mat N C) (bc : Row C) : Mat M C :=
  fun i => mm Y Wc i + bc (ix1 (i 1))

theorem upd_apply (X H : Mat M K) (Ws Wn : Mat K N) (b : Row N) (p : Fin M) (q : Fin N) :
    upd X H Ws Wn b (ix2 p q) = max ((mm X Ws (ix2 p q) + mm H Wn (ix2 p q)) + b (ix1 q)) 0 := rfl

theorem head_apply (Y : Mat M N) (Wc : Mat N C) (bc : Row C) (p : Fin M) (q : Fin C) :
    head Y Wc bc (ix2 p q) = mm Y Wc (ix2 p q) + bc (ix1 q) := rfl

/-! ## The bias row as each side stores it -/

/-- A bias vector cast to one row and broadcast over the rows reads, at (p, q), the vector at q. -/
theorem castRow_apply (b : FVec Ideal ⟨1, ![N]⟩ .f32) (hsc : (⟨1, ![N]⟩ : Shape).ShapeCasts ⟨2, ![1, N]⟩)
    (hbc : (⟨2, ![1, N]⟩ : Shape).Broadcasts ⟨2, ![M, N]⟩) (p : Fin M) (q : Fin N) :
    broadcastTo ⟨2, ![M, N]⟩ (shapeCast ⟨2, ![1, N]⟩ b hsc) hbc (ix2 p q) = b (ix1 q) := by
  rw [broadcastTo_1b_ab_apply, shapeCast_a_1a_apply]

/-- A bias vector broadcast first to one row and then over the rows reads, at (p, q), the vector at q. -/
theorem bcastRow_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-! ## The vector unit's spelling -/

/-- Two products into zero accumulators, added, plus the bias cast to a row and broadcast, rectified against a splat
    zero: the update. -/
theorem kernel_upd {φ₁ φ₂ φ₃ φ₄ : FTy} (x : FVec Ideal ⟨2, ![M, K]⟩ φ₁) (h : FVec Ideal ⟨2, ![M, K]⟩ φ₂)
    (ws : FVec Ideal ⟨2, ![K, N]⟩ φ₃) (wn : FVec Ideal ⟨2, ![K, N]⟩ φ₄) (b : FVec Ideal ⟨1, ![N]⟩ .f32)
    (hsc : (⟨1, ![N]⟩ : Shape).ShapeCasts ⟨2, ![1, N]⟩) (hbc : (⟨2, ![1, N]⟩ : Shape).Broadcasts ⟨2, ![M, N]⟩) :
    maximumf (addf (addf (matmul (DotDims.plain M K N) none x ws (constant (F := Ideal) ⟨2, ![M, N]⟩ .f32 0x00000000#32))
                         (matmul (DotDims.plain M K N) none h wn (constant (F := Ideal) ⟨2, ![M, N]⟩ .f32 0x00000000#32)))
                   (broadcastTo ⟨2, ![M, N]⟩ (shapeCast ⟨2, ![1, N]⟩ b hsc) hbc))
        (broadcast ⟨2, ![M, N]⟩ (Scalar.ofBits (F := Ideal) .f32 0x00000000#32))
      = upd x h ws wn b := by
  rw [maximumf_splat_zero, matmul_plain_zero, matmul_plain_zero]
  funext i
  obtain ⟨p, q, rfl⟩ : ∃ (p : Fin M) (q : Fin N), i = ix2 p q := ⟨i 0, i 1, eq_ix2 i⟩
  show max ((mm x ws (ix2 p q) + mm h wn (ix2 p q))
      + broadcastTo ⟨2, ![M, N]⟩ (shapeCast ⟨2, ![1, N]⟩ b hsc) hbc (ix2 p q)) 0 = _
  rw [castRow_apply]
  rfl

/-- A product into a zero accumulator plus the bias cast to a row and broadcast: the head. -/
theorem kernel_head {φ₁ φ₂ : FTy} (y : FVec Ideal ⟨2, ![M, N]⟩ φ₁) (wc : FVec Ideal ⟨2, ![N, C]⟩ φ₂)
    (bc : FVec Ideal ⟨1, ![C]⟩ .f32) (hsc : (⟨1, ![C]⟩ : Shape).ShapeCasts ⟨2, ![1, C]⟩)
    (hbc : (⟨2, ![1, C]⟩ : Shape).Broadcasts ⟨2, ![M, C]⟩) :
    addf (matmul (DotDims.plain M N C) none y wc (constant (F := Ideal) ⟨2, ![M, C]⟩ .f32 0x00000000#32))
        (broadcastTo ⟨2, ![M, C]⟩ (shapeCast ⟨2, ![1, C]⟩ bc hsc) hbc)
      = head y wc bc := by
  rw [matmul_plain_zero]
  funext i
  obtain ⟨p, q, rfl⟩ : ∃ (p : Fin M) (q : Fin C), i = ix2 p q := ⟨i 0, i 1, eq_ix2 i⟩
  show mm y wc (ix2 p q) + broadcastTo ⟨2, ![M, C]⟩ (shapeCast ⟨2, ![1, C]⟩ bc hsc) hbc (ix2 p q) = _
  rw [castRow_apply]
  rfl

/-! ## The host's spelling -/

/-- Two general dot products, added, plus the bias broadcast in two steps, rectified against a broadcast zero
    scalar: the update. -/
theorem host_upd {φ₁ φ₂ φ₃ φ₄ : FTy} (x : FVec Ideal ⟨2, ![M, K]⟩ φ₁) (h : FVec Ideal ⟨2, ![M, K]⟩ φ₂)
    (ws : FVec Ideal ⟨2, ![K, N]⟩ φ₃) (wn : FVec Ideal ⟨2, ![K, N]⟩ φ₄) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral (F := Ideal) (DotDims.plain M K N) none x ws)
                         (Host.dotGeneral (F := Ideal) (DotDims.plain M K N) none h wn))
                   (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = upd x h ws wn b := by
  rw [maximumf_broadcastInDim_zero, dotGeneral_plain, dotGeneral_plain]
  funext i
  obtain ⟨p, q, rfl⟩ : ∃ (p : Fin M) (q : Fin N), i = ix2 p q := ⟨i 0, i 1, eq_ix2 i⟩
  show max ((mm x ws (ix2 p q) + mm h wn (ix2 p q))
      + broadcastInDim ⟨2, ![M, N]⟩ ![0, 1] h2 (broadcastInDim ⟨2, ![1, N]⟩ ![1] h1 b) (ix2 p q)) 0 = _
  rw [bcastRow_apply]
  rfl

/-- A general dot product plus the bias broadcast in two steps: the head. -/
theorem host_head {φ₁ φ₂ : FTy} (y : FVec Ideal ⟨2, ![M, N]⟩ φ₁) (wc : FVec Ideal ⟨2, ![N, C]⟩ φ₂)
    (bc : FVec Ideal ⟨1, ![C]⟩ .f32) (h1 : (⟨1, ![C]⟩ : Shape).BroadcastsInDim ⟨2, ![1, C]⟩ ![1])
    (h2 : (⟨2, ![1, C]⟩ : Shape).BroadcastsInDim ⟨2, ![M, C]⟩ ![0, 1]) :
    addf (Host.dotGeneral (F := Ideal) (DotDims.plain M N C) none y wc)
        (broadcastInDim ⟨2, ![M, C]⟩ ![0, 1] h2 (broadcastInDim ⟨2, ![1, C]⟩ ![1] h1 bc))
      = head y wc bc := by
  rw [dotGeneral_plain]
  funext i
  obtain ⟨p, q, rfl⟩ : ∃ (p : Fin M) (q : Fin C), i = ix2 p q := ⟨i 0, i 1, eq_ix2 i⟩
  show mm y wc (ix2 p q) + broadcastInDim ⟨2, ![M, C]⟩ ![0, 1] h2 (broadcastInDim ⟨2, ![1, C]⟩ ![1] h1 bc) (ix2 p q) = _
  rw [bcastRow_apply]
  rfl

/-! ## Blocks of rows

  Stated over plain index variables: the block's operands are any arrays that agree entry by entry with the whole
  arrays — the row operands at rows ρ p, the weights and biases everywhere. -/

/-- A product on a block of rows, with a weight matrix that agrees with the whole one, is the whole product at
    those rows. -/
theorem mm_block {M' : ℕ} (A : Mat M' K) (blk : Mat M K) (W W' : Mat K N) (ρ : Fin M → Fin M')
    (ha : ∀ p k, blk (ix2 p k) = A (ix2 (ρ p) k)) (hw : ∀ k q, W' (ix2 k q) = W (ix2 k q)) (p : Fin M) (q : Fin N) :
    mm blk W' (ix2 p q) = mm A W (ix2 (ρ p) q) := by
  unfold mm
  refine Finset.sum_congr rfl fun k _ => ?_
  show blk (ix2 p k) * W' (ix2 k q) = A (ix2 (ρ p) k) * W (ix2 k q)
  rw [ha p k, hw k q]

/-- The update on a block of rows is the whole update at those rows. -/
theorem upd_block {M' : ℕ} (X H : Mat M' K) (bx bh : Mat M K) (Ws Wn Ws' Wn' : Mat K N) (b b' : Row N)
    (ρ : Fin M → Fin M') (hx : ∀ p k, bx (ix2 p k) = X (ix2 (ρ p) k)) (hh : ∀ p k, bh (ix2 p k) = H (ix2 (ρ p) k))
    (hws : ∀ k q, Ws' (ix2 k q) = Ws (ix2 k q)) (hwn : ∀ k q, Wn' (ix2 k q) = Wn (ix2 k q))
    (hb : ∀ q, b' (ix1 q) = b (ix1 q)) (p : Fin M) (q : Fin N) :
    upd bx bh Ws' Wn' b' (ix2 p q) = upd X H Ws Wn b (ix2 (ρ p) q) := by
  rw [upd_apply, upd_apply, mm_block X bx Ws Ws' ρ hx hws p q, mm_block H bh Wn Wn' ρ hh hwn p q, hb q]

/-- The head on a block of rows is the whole head at those rows. -/
theorem head_block {M' : ℕ} (Y : Mat M' N) (by' : Mat M N) (Wc Wc' : Mat N C) (bc bc' : Row C)
    (ρ : Fin M → Fin M') (hy : ∀ p k, by' (ix2 p k) = Y (ix2 (ρ p) k))
    (hwc : ∀ k q, Wc' (ix2 k q) = Wc (ix2 k q)) (hbc : ∀ q, bc' (ix1 q) = bc (ix1 q)) (p : Fin M) (q : Fin C) :
    head by' Wc' bc' (ix2 p q) = head Y Wc bc (ix2 (ρ p) q) := by
  rw [head_apply, head_apply, mm_block Y by' Wc Wc' ρ hy hwc p q, hbc q]

end Cert.SageUpdate

end
-- ==== Proof.Region0.lean ====
/-
  What the first layer's region leaves in its output array.

  The region walks 20 grid points; at point t its body reads rows 5000·t … 5000·t + 4999 of the node features and
  of the neighbourhood means, the whole of both weight matrices and of the bias, and stores the update of those
  rows. Written back, block t is rows 5000·t … of the output array; the 20 blocks tile its 100000 rows. Since an
  entry of the update depends on its own row of the row operands only, the array ends holding the update of the
  whole arrays the region found on entry.
-/
import proofs.«133964_j56530359550767_1_alg».proof.Proof.Gen.KernelIdeal.Frame
import proofs.«133964_j56530359550767_1_alg».proof.Proof.LibSageUpdate

set_option maxRecDepth 16384

noncomputable section

namespace Cert.KernelIdeal.Sage

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense Cert.SageUpdate

theorem zeros2 : (![0, 0] : Fin 2 → Nat) = fun _ => 0 := funext fun a => by fin_cases a <;> rfl
theorem zeros1 : (![0] : Fin 1 → Nat) = fun _ => 0 := funext fun a => by fin_cases a; rfl

/-- The body's stored value is the update of the blocks it loaded: the format changes and the identity cast are
    the identity on the extended reals. -/
theorem pay0 (x0 x1 : Vec Ideal S5000x64 .f32) (x2 x3 : Vec Ideal S64x128 .f32) (x4 : Vec Ideal S128 .f32) :
    k0_pay1 x0 x1 x2 x3 x4 = upd x0 x1 x2 x3 x4 :=
  (kernel_upd (M := 5000) (K := 64) (N := 128) (truncf .bf16 x0 bitsLt_bf16_f32)
      (truncf .bf16 (shapeCast S5000x64 x1 shapeCasts_S5000x64_S5000x64) bitsLt_bf16_f32)
      (truncf .bf16 x2 bitsLt_bf16_f32) (truncf .bf16 x3 bitsLt_bf16_f32) x4 shapeCasts_S128_S1x128
      broadcasts_S1x128_S5000x128).trans (by rw [shapeCast_self]; rfl)

/-- The output buffer after the body: its one whole-buffer store's payload. -/
theorem out0 (x0 x1 : Vec Ideal S5000x64 .f32) (x2 x3 : Vec Ideal S64x128 .f32) (x4 : Vec Ideal S128 .f32) :
    out0_5 x0 x1 x2 x3 x4 = upd x0 x1 x2 x3 x4 := by
  unfold out0_5
  rw [View.canon_unit_zero zeros2]
  simp only [View.ld_unit_zero (S := S5000x64) zeros2, View.ld_unit_zero (S := S64x128) zeros2,
    View.ld_unit_zero (S := S128) zeros1]
  exact pay0 x0 x1 x2 x3 x4

/-- The printed index maps over the grid: the row windows and the output move with the point, the weights and the
    bias stay at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row p of point t's block is row 5000·t + p of the array. -/
def row0 (t : Fin cfg0.N) (p : Fin 5000) : Fin 100000 :=
  ⟨5000 * t.val + p.val, by have ht : t.val < 20 := lt_of_lt_of_eq t.isLt N_0; have := p.isLt; omega⟩

variable (V : (c : Dev nD) → (b : Ref sig .tc) → Buf (Elt Ideal) ((c : Thread nD τ).loc b))

/-- The update of the arrays the region finds on entry. -/
def layer1 (c : Dev nD) : Mat 100000 128 :=
  upd (M := 100000) (K := 64) (N := 128) (V c main_arg0) (V c main_v24) (V c main_arg2) (V c main_arg3) (V c main_arg4)

theorem blk0_0 (c : Dev nD) (t : Fin cfg0.N) (p : Fin 5000) (k : Fin 64) :
    iblk0 V c 0 t (ix2 p k) = V c main_arg0 (ix2 (row0 t p) k) := by
  obtain ⟨e0, e1, -⟩ := idx0 t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = 5000 * t.val + p.val; omega
  | ⟨1, _⟩ => show win0_0.index t (1 : Fin 2) * 64 + 1 * k.val = k.val; omega

theorem blk0_1 (c : Dev nD) (t : Fin cfg0.N) (p : Fin 5000) (k : Fin 64) :
    iblk0 V c 1 t (ix2 p k) = V c main_v24 (ix2 (row0 t p) k) := by
  obtain ⟨-, -, e0, e1, -⟩ := idx0 t
  show V c main_v24 (((cfg0.win 1).blk t).view.emb (ix2 p k)) = _
  refine congrArg (V c main_v24) (funext fun a => Fin.ext ?_)
  match a with
  | ⟨0, _⟩ => show win0_1.index t (0 : Fin 2) * 5000 + 1 * p.val = 5000 * t.val + p.val; omega
  | ⟨1, _⟩ => show win0_1.index t (1 : Fin 2) * 64 + 1 * k.val = k.val; omega

theorem blk0_2 (c : Dev nD) (t : Fin cfg0.N) (k : Fin 64) (q : Fin 128) :
    iblk0 V c 2 t (ix2 k q) = V c main_arg2 (ix2 k q) := by
  obtain ⟨-, -, -, -, e0, e1, -⟩ := idx0 t
  show V c main_arg2 (((cfg0.win 2).blk t).view.emb (ix2 k q)) = _
  refine congrArg (V c main_arg2) (funext fun a => Fin.ext ?_)
  match a with
  | ⟨0, _⟩ => show win0_2.index t (0 : Fin 2) * 64 + 1 * k.val = k.val; omega
  | ⟨1, _⟩ => show win0_2.index t (1 : Fin 2) * 128 + 1 * q.val = q.val; omega

theorem blk0_3 (c : Dev nD) (t : Fin cfg0.N) (k : Fin 64) (q : Fin 128) :
    iblk0 V c 3 t (ix2 k q) = V c main_arg3 (ix2 k q) := by
  obtain ⟨-, -, -, -, -, -, e0, e1, -⟩ := idx0 t
  show V c main_arg3 (((cfg0.win 3).blk t).view.emb (ix2 k q)) = _
  refine congrArg (V c main_arg3) (funext fun a => Fin.ext ?_)
  match a with
  | ⟨0, _⟩ => show win0_3.index t (0 : Fin 2) * 64 + 1 * k.val = k.val; omega
  | ⟨1, _⟩ => show win0_3.index t (1 : Fin 2) * 128 + 1 * q.val = q.val; omega

theorem blk0_4 (c : Dev nD) (t : Fin cfg0.N) (q : Fin 128) :
    iblk0 V c 4 t (ix1 q) = V c main_arg4 (ix1 q) := by
  obtain ⟨-, -, -, -, -, -, -, -, e0, -⟩ := idx0 t
  show V c main_arg4 (((cfg0.win 4).blk t).view.emb (ix1 q)) = _
  refine congrArg (V c main_arg4) (funext fun a => Fin.ext ?_)
  match a with
  | ⟨0, _⟩ => show win0_4.index t (0 : Fin 1) * 128 + 1 * q.val = q.val; omega

/-- What point t writes back is block t of the update of the entry arrays. -/
theorem flushed0 (c : Dev nD) (t : Fin cfg0.N) :
    (dat0 V c).flushed 5 t = ((cfg0.win 5).blk t).view.read (Elt Ideal) (layer1 V c) := by
  show (cfg0.win 5).cut (grid0.coords t) ((dat0 V c).after 5 t) = _
  rw [after0_5, out0]
  funext j
  obtain ⟨p, q, rfl⟩ : ∃ (p : Fin 5000) (q : Fin 128), j = ix2 p q := ⟨j 0, j 1, eq_ix2 j⟩
  obtain ⟨-, -, -, -, -, -, -, -, -, e0, e1⟩ := idx0 t
  have he : ((cfg0.win 5).blk t).view.emb (ix2 p q) = ix2 (row0 t p) q := funext fun a => Fin.ext (by
    match a with
    | ⟨0, _⟩ => show win0_5.index t (0 : Fin 2) * 5000 + 1 * p.val = 5000 * t.val + p.val; omega
    | ⟨1, _⟩ => show win0_5.index t (1 : Fin 2) * 128 + 1 * q.val = q.val; omega)
  show upd (iblk0 V c 0 t) (iblk0 V c 1 t) (iblk0 V c 2 t) (iblk0 V c 3 t) (iblk0 V c 4 t) (ix2 p q)
    = layer1 V c (((cfg0.win 5).blk t).view.emb (ix2 p q))
  rw [he]
  exact upd_block (M := 5000) (M' := 100000) (K := 64) (N := 128) (V c main_arg0) (V c main_v24) (iblk0 V c 0 t) (iblk0 V c 1 t)
    (V c main_arg2) (V c main_arg3) (iblk0 V c 2 t) (iblk0 V c 3 t) (V c main_arg4) (iblk0 V c 4 t) (row0 t)
    (blk0_0 V c t) (blk0_1 V c t) (blk0_2 V c t) (blk0_3 V c t) (blk0_4 V c t) p q

/-- An index of the output array is in point t's block iff each coordinate is in the block's range. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v25).slice (win0_5.rect t)).set ↔ _
  rw [View.set_slice_whole, Rect.mem_set_unit]
  exact Iff.rfl

/-- Row r of the output array is in the block of point r / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨-, -, -, -, -, -, -, -, -, e0, e1⟩ := idx0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the update of the arrays found on entry. -/
theorem final0 (c : Dev nD) : (dat0 V c).arrAt 5 cfg0.N = layer1 V c :=
  (dat0 V c).arrAt_eq_of_cover 5 (layer1 V c) (fun t _ => flushed0 V c t) cover0

end Cert.KernelIdeal.Sage

end
-- ==== Proof.Region1.lean ====
/-
  What the second layer's region leaves in its output array.

  As in the first region, point t reads rows 5000·t … 5000·t + 4999 of the hidden features and of their
  neighbourhood means, and the whole of the weights and biases; its body forms the update of those rows and at once
  the head of that update, and stores it. The 20 written-back blocks tile the 100000 rows of the output, and an
  entry of the head of the update depends on its own row of the row operands only: the array ends holding the head
  of the update of the whole arrays the region found on entry.
-/
import proofs.«133964_j56530359550767_1_alg».proof.Proof.Region0

set_option maxRecDepth 16384

noncomputable section

namespace Cert.KernelIdeal.Sage

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Dense Cert.SageUpdate

/-- The body's hidden value, before the head: the update of the blocks it loaded. -/
theorem hidden1 (x0 x1 : Vec Ideal S5000x128 .f32) (x2 x3 : Vec Ideal S128x64 .f32) (x4 : Vec Ideal S64 .f32) :
    maximumf
        (addf
          (addf
            (matmul dot_S5000x128_S128x64_S5000x64_1_0_0_1_n_n none
              (truncf .bf16 (shapeCast S5000x128 x0 shapeCasts_S5000x128_S5000x128) bitsLt_bf16_f32)
              (truncf .bf16 x2 bitsLt_bf16_f32) (constant (F := Ideal) S5000x64 .f32 0x00000000#32))
            (matmul dot_S5000x128_S128x64_S5000x64_1_0_0_1_n_n none
              (truncf .bf16 (shapeCast S5000x128 x1 shapeCasts_S5000x128_S5000x128) bitsLt_bf16_f32)
              (truncf .bf16 x3 bitsLt_bf16_f32) (constant (F := Ideal) S5000x64 .f32 0x00000000#32)))
          (broadcastTo S5000x64 (shapeCast S1x64 x4 shapeCasts_S64_S1x64) broadcasts_S1x64_S5000x64))
        (broadcast S5000x64 (Scalar.ofBits (F := Ideal) .f32 0x00000000#32))
      = upd (M := 5000) (K := 128) (N := 64) x0 x1 x2 x3 x4 :=
  (kernel_upd (M := 5000) (K := 128) (N := 64)
      (truncf .bf16 (shapeCast S5000x128 x0 shapeCasts_S5000x128_S5000x128) bitsLt_bf16_f32)
      (truncf .bf16 (shapeCast S5000x128 x1 shapeCasts_S5000x128_S5000x128) bitsLt_bf16_f32)
      (truncf .bf16 x2 bitsLt_bf16_f32) (truncf .bf16 x3 bitsLt_bf16_f32) x4 shapeCasts_S64_S1x64
      broadcasts_S1x64_S5000x64).trans (by rw [shapeCast_self, shapeCast_self]; rfl)

/-- The body's stored value is the head of the update of the blocks it loaded. -/
theorem pay1 (x0 x1 : Vec Ideal S5000x128 .f32) (x2 x3 : Vec Ideal S128x64 .f32) (x4 : Vec Ideal S64 .f32)
    (x5 : Vec Ideal S64x20 .f32) (x6 : Vec Ideal S20 .f32) :
    k1_pay1 x0 x1 x2 x3 x4 x5 x6 = head (upd (M := 5000) (K := 128) (N := 64) x0 x1 x2 x3 x4) x5 x6 :=
  (kernel_head (M := 5000) (N := 64) (C := 20)
      (truncf .bf16
        (maximumf
          (addf
            (addf
              (matmul dot_S5000x128_S128x64_S5000x64_1_0_0_1_n_n none
                (truncf .bf16 (shapeCast S5000x128 x0 shapeCasts_S5000x128_S5000x128) bitsLt_bf16_f32)
                (truncf .bf16 x2 bitsLt_bf16_f32) (constant (F := Ideal) S5000x64 .f32 0x00000000#32))
              (matmul dot_S5000x128_S128x64_S5000x64_1_0_0_1_n_n none
                (truncf .bf16 (shapeCast S5000x128 x1 shapeCasts_S5000x128_S5000x128) bitsLt_bf16_f32)
                (truncf .bf16 x3 bitsLt_bf16_f32) (constant (F := Ideal) S5000x64 .f32 0x00000000#32)))
            (broadcastTo S5000x64 (shapeCast S1x64 x4 shapeCasts_S64_S1x64) broadcasts_S1x64_S5000x64))
          (broadcast S5000x64 (Scalar.ofBits (F := Ideal) .f32 0x00000000#32)))
        bitsLt_bf16_f32)
      (truncf .bf16 x5 bitsLt_bf16_f32) x6 shapeCasts_S20_S1x20 broadcasts_S1x20_S5000x20).trans
    (congrArg (fun y => head (M := 5000) (N := 64) (C := 20) y x5 x6) (hidden1 x0 x1 x2 x3 x4))

/-- The output buffer after the body: its one whole-buffer store's payload. -/
theorem out1 (x0 x1 : Vec Ideal S5000x128 .f32) (x2 x3 : Vec Ideal S128x64 .f32) (x4 : Vec Ideal S64 .f32)
    (x5 : Vec Ideal S64x20 .f32) (x6 : Vec Ideal S20 .f32) :
    out1_7 x0 x1 x2 x3 x4 x5 x6 = head (upd (M := 5000) (K := 128) (N := 64) x0 x1 x2 x3 x4) x5 x6 := by
  unfold out1_7
  rw [View.canon_unit_zero zeros2]
  simp only [View.ld_unit_zero (S := S5000x128) zeros2, View.ld_unit_zero (S := S128x64) zeros2,
    View.ld_unit_zero (S := S64) zeros1, View.ld_unit_zero (S := S64x20) zeros2, View.ld_unit_zero (S := S20) zeros1]
  exact pay1 x0 x1 x2 x3 x4 x5 x6

/-- The printed index maps over the grid: the row windows and the output move with the point, the weights and the
    biases stay at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row p of point t's block is row 5000·t + p of the array. -/
def row1 (t : Fin cfg1.N) (p : Fin 5000) : Fin 100000 :=
  ⟨5000 * t.val + p.val, by have ht : t.val < 20 := lt_of_lt_of_eq t.isLt N_1; have := p.isLt; omega⟩

variable (V : (c : Dev nD) → (b : Ref sig .tc) → Buf (Elt Ideal) ((c : Thread nD τ).loc b))

/-- The hidden features the second region forms from the arrays it finds on entry. -/
def hidden2 (c : Dev nD) : Mat 100000 64 :=
  upd (M := 100000) (K := 128) (N := 64) (V c main_v25) (V c main_v38) (V c main_arg5) (V c main_arg6) (V c main_arg7)

/-- The head of those hidden features. -/
def layer2 (c : Dev nD) : Mat 100000 20 :=
  head (M := 100000) (N := 64) (C := 20) (hidden2 V c) (V c main_arg8) (V c main_arg9)

theorem blk1_0 (c : Dev nD) (t : Fin cfg1.N) (p : Fin 5000) (k : Fin 128) :
    iblk1 V c 0 t (ix2 p k) = V c main_v25 (ix2 (row1 t p) k) := by
  obtain ⟨e0, e1, -⟩ := idx1 t
  show V c main_v25 (((cfg1.win 0).blk t).view.emb (ix2 p k)) = _
  refine congrArg (V c main_v25) (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * k.val = k.val; omega

theorem blk1_1 (c : Dev nD) (t : Fin cfg1.N) (p : Fin 5000) (k : Fin 128) :
    iblk1 V c 1 t (ix2 p k) = V c main_v38 (ix2 (row1 t p) k) := by
  obtain ⟨-, -, e0, e1, -⟩ := idx1 t
  show V c main_v38 (((cfg1.win 1).blk t).view.emb (ix2 p k)) = _
  refine congrArg (V c main_v38) (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * k.val = k.val; omega

theorem blk1_2 (c : Dev nD) (t : Fin cfg1.N) (k : Fin 128) (q : Fin 64) :
    iblk1 V c 2 t (ix2 k q) = V c main_arg5 (ix2 k q) := by
  obtain ⟨-, -, -, -, e0, e1, -⟩ := idx1 t
  show V c main_arg5 (((cfg1.win 2).blk t).view.emb (ix2 k q)) = _
  refine congrArg (V c main_arg5) (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

theorem blk1_3 (c : Dev nD) (t : Fin cfg1.N) (k : Fin 128) (q : Fin 64) :
    iblk1 V c 3 t (ix2 k q) = V c main_arg6 (ix2 k q) := by
  obtain ⟨-, -, -, -, -, -, e0, e1, -⟩ := idx1 t
  show V c main_arg6 (((cfg1.win 3).blk t).view.emb (ix2 k q)) = _
  refine congrArg (V c main_arg6) (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

theorem blk1_4 (c : Dev nD) (t : Fin cfg1.N) (q : Fin 64) :
    iblk1 V c 4 t (ix1 q) = V c main_arg7 (ix1 q) := by
  obtain ⟨-, -, -, -, -, -, -, -, e0, -⟩ := idx1 t
  show V c main_arg7 (((cfg1.win 4).blk t).view.emb (ix1 q)) = _
  refine congrArg (V c main_arg7) (funext fun a => Fin.ext ?_)
  match a with
  | ⟨0, _⟩ => show win1_4.index t (0 : Fin 1) * 64 + 1 * q.val = q.val; omega

theorem blk1_5 (c : Dev nD) (t : Fin cfg1.N) (k : Fin 64) (q : Fin 20) :
    iblk1 V c 5 t (ix2 k q) = V c main_arg8 (ix2 k q) := by
  obtain ⟨-, -, -, -, -, -, -, -, -, e0, e1, -⟩ := idx1 t
  show V c main_arg8 (((cfg1.win 5).blk t).view.emb (ix2 k q)) = _
  refine congrArg (V c main_arg8) (funext fun a => Fin.ext ?_)
  match a with
  | ⟨0, _⟩ => show win1_5.index t (0 : Fin 2) * 64 + 1 * k.val = k.val; omega
  | ⟨1, _⟩ => show win1_5.index t (1 : Fin 2) * 20 + 1 * q.val = q.val; omega

theorem blk1_6 (c : Dev nD) (t : Fin cfg1.N) (q : Fin 20) :
    iblk1 V c 6 t (ix1 q) = V c main_arg9 (ix1 q) := by
  obtain ⟨-, -, -, -, -, -, -, -, -, -, -, e0, -⟩ := idx1 t
  show V c main_arg9 (((cfg1.win 6).blk t).view.emb (ix1 q)) = _
  refine congrArg (V c main_arg9) (funext fun a => Fin.ext ?_)
  match a with
  | ⟨0, _⟩ => show win1_6.index t (0 : Fin 1) * 20 + 1 * q.val = q.val; omega

/-- What point t writes back is block t of the head of the update of the entry arrays. -/
theorem flushed1 (c : Dev nD) (t : Fin cfg1.N) :
    (dat1 V c).flushed 7 t = ((cfg1.win 7).blk t).view.read (Elt Ideal) (layer2 V c) := by
  show (cfg1.win 7).cut (grid1.coords t) ((dat1 V c).after 7 t) = _
  rw [after1_7, out1]
  funext j
  obtain ⟨p, q, rfl⟩ : ∃ (p : Fin 5000) (q : Fin 20), j = ix2 p q := ⟨j 0, j 1, eq_ix2 j⟩
  obtain ⟨-, -, -, -, -, -, -, -, -, -, -, -, e0, e1⟩ := idx1 t
  have he : ((cfg1.win 7).blk t).view.emb (ix2 p q) = ix2 (row1 t p) q := funext fun a => Fin.ext (by
    match a with
    | ⟨0, _⟩ => show win1_7.index t (0 : Fin 2) * 5000 + 1 * p.val = 5000 * t.val + p.val; omega
    | ⟨1, _⟩ => show win1_7.index t (1 : Fin 2) * 20 + 1 * q.val = q.val; omega)
  show head (upd (M := 5000) (K := 128) (N := 64) (iblk1 V c 0 t) (iblk1 V c 1 t) (iblk1 V c 2 t) (iblk1 V c 3 t) (iblk1 V c 4 t))
      (iblk1 V c 5 t) (iblk1 V c 6 t) (ix2 p q)
    = layer2 V c (((cfg1.win 7).blk t).view.emb (ix2 p q))
  rw [he]
  exact head_block (M := 5000) (M' := 100000) (N := 64) (C := 20) (hidden2 V c)
    (upd (M := 5000) (K := 128) (N := 64) (iblk1 V c 0 t) (iblk1 V c 1 t) (iblk1 V c 2 t) (iblk1 V c 3 t) (iblk1 V c 4 t))
    (V c main_arg8) (iblk1 V c 5 t) (V c main_arg9) (iblk1 V c 6 t) (row1 t)
    (fun p k => upd_block (M := 5000) (M' := 100000) (K := 128) (N := 64) (V c main_v25) (V c main_v38)
      (iblk1 V c 0 t) (iblk1 V c 1 t) (V c main_arg5) (V c main_arg6) (iblk1 V c 2 t) (iblk1 V c 3 t)
      (V c main_arg7) (iblk1 V c 4 t) (row1 t) (blk1_0 V c t) (blk1_1 V c t) (blk1_2 V c t) (blk1_3 V c t)
      (blk1_4 V c t) p k)
    (blk1_5 V c t) (blk1_6 V c t) p q

/-- An index of the output array is in point t's block iff each coordinate is in the block's range. -/
theorem mem_blk1 (t : Fin cfg1.N) (i : S100000x20.Idx) :
    i ∈ ((cfg1.win 7).blk t).view.set ↔ ∀ a : Fin 2, win1_7.index t a * S5000x20.size a ≤ (i a).val
      ∧ (i a).val < win1_7.index t a * S5000x20.size a + S5000x20.size a := by
  show i ∈ ((View.whole main_v39).slice (win1_7.rect t)).set ↔ _
  rw [View.set_slice_whole, Rect.mem_set_unit]
  exact Iff.rfl

/-- Row r of the output array is in the block of point r / 5000. -/
theorem cover1 (i : S100000x20.Idx) :
    ∃ t : Fin cfg1.N, (cfg1.win 7).flush t = true ∧ i ∈ ((cfg1.win 7).blk t).view.set := by
  have hi0 : (i 0).val < 100000 := (i 0).isLt
  have hi1 : (i 1).val < 20 := (i 1).isLt
  let t : Fin cfg1.N := ⟨(i 0).val / 5000, lt_of_lt_of_eq (by omega : (i 0).val / 5000 < 20) N_1.symm⟩
  obtain ⟨-, -, -, -, -, -, -, -, -, -, -, -, e0, e1⟩ := idx1 t
  have ht : t.val = (i 0).val / 5000 := rfl
  refine ⟨t, flush1_7 t, ?_⟩
  rw [mem_blk1]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 20 ≤ (i 1).val ∧ (i 1).val < win1_7.index t (1 : Fin 2) * 20 + 20; omega

/-- The output array after the region: the head of the update of the arrays found on entry. -/
theorem final1 (c : Dev nD) : (dat1 V c).arrAt 7 cfg1.N = layer2 V c :=
  (dat1 V c).arrAt_eq_of_cover 7 (layer2 V c) (fun t _ => flushed1 V c t) cover1

end Cert.KernelIdeal.Sage

end
-- ==== Proof.Glue.lean ====
/-
  The neighbourhood mean, as both programs compute it on the host.

  The edge list is a 2 × E table of node numbers: row 0 the sources, row 1 the destinations. A node's degree is the
  number of edges that arrive at it — ones scattered-and-added at the destinations —, clipped below at one, and the
  neighbourhood mean of a feature table is the sum over the arriving edges of the source's row — rows gathered at the
  sources (a negative source number wrapped once by the row count) and scattered-and-added at the destinations —
  times the reciprocal of that clipped degree, row by row. Each stage is given a name here, over the program's own
  dimension records; nothing below opens them.
-/
import proofs.«133964_j56530359550767_1_alg».proof.Proof.Gen.KernelIdeal
import Idealize.ShloMosaic.PureOps.Ideal

noncomputable section

namespace Cert.KernelIdeal.Sage

open Idealize.ShloMosaic Idealize.SL.Sem Cert.KernelIdeal Cert.KernelIdeal.Facts₀ Cert.KernelIdeal.Facts

/-- The edge list. -/
abbrev Edges : Type := (⟨S2x1600000, .i32⟩ : BufTy).Contents (Elt Ideal)
/-- One node number per edge. -/
abbrev EdgeRow : Type := (⟨S1600000, .i32⟩ : BufTy).Contents (Elt Ideal)
/-- The same as a one-column table. -/
abbrev EdgeCol : Type := (⟨S1600000x1, .i32⟩ : BufTy).Contents (Elt Ideal)

/-- The edges' sources: row 0 of the edge list. -/
def srcRow (e : Edges) : EdgeRow :=
  shapeCast S1600000 (extractStridedSlice S1x1600000 ![0, 0] e slices_S2x1600000_S1x1600000_0_0) shapeCasts_S1x1600000_S1600000

/-- The edges' destinations: row 1 of the edge list. -/
def dstRow (e : Edges) : EdgeRow :=
  shapeCast S1600000 (extractStridedSlice S1x1600000 ![1, 0] e slices_S2x1600000_S1x1600000_1_0) shapeCasts_S1x1600000_S1600000

/-- The destinations as the index column of a scatter. -/
def dstCol (e : Edges) : EdgeCol := broadcastInDim S1600000x1 ![0] bcast_S1600000_S1600000x1_0 (dstRow e)

/-- The sources as the index column of a gather: a negative number has the row count added to it once. -/
def srcCol (e : Edges) : EdgeCol :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32)))
      (srcRow e))

/-- The reciprocal of each node's degree clipped below at one. -/
def degInv (e : Edges) : (⟨S100000, .f32⟩ : BufTy).Contents (Elt Ideal) :=
  Host.divf (broadcastInDim S100000 ![] bcast_S_S100000 (constant (F := Ideal) S_ .f32 0x3F800000#32))
    (maximumf
      (Host.scatterAdd scatter_S100000_S1600000x1_S1600000_n_0_0_1
        (broadcastInDim S100000 ![] bcast_S_S100000 (constant (F := Ideal) S_ .f32 0x00000000#32))
        (dstCol e)
        (broadcastInDim S1600000 ![] bcast_S_S1600000 (constant (F := Ideal) S_ .f32 0x3F800000#32)))
      (broadcastInDim S100000 ![] bcast_S_S100000 (constant (F := Ideal) S_ .f32 0x3F800000#32)))

/-- The neighbourhood mean of a 64-column feature table. -/
def nmean64 (x : (⟨S100000x64, .f32⟩ : BufTy).Contents (Elt Ideal)) (e : Edges) :
    (⟨S100000x64, .f32⟩ : BufTy).Contents (Elt Ideal) :=
  mulf
    (Host.scatterAdd scatter_S100000x64_S1600000x1_S1600000x64_1_0_0_1
      (broadcastInDim S100000x64 ![] bcast_S_S100000x64 (constant (F := Ideal) S_ .f32 0x00000000#32))
      (dstCol e)
      (Host.gather gather_S100000x64_S1600000x1_S1600000x64_1_0_n_n_0_1_164 x (srcCol e)))
    (broadcastInDim S100000x64 ![0, 1] bcast_S100000x1_S100000x64_0_1
      (broadcastInDim S100000x1 ![0] bcast_S100000_S100000x1_0 (degInv e)))

/-- The neighbourhood mean of a 128-column feature table. -/
def nmean128 (h : (⟨S100000x128, .f32⟩ : BufTy).Contents (Elt Ideal)) (e : Edges) :
    (⟨S100000x128, .f32⟩ : BufTy).Contents (Elt Ideal) :=
  mulf
    (Host.scatterAdd scatter_S100000x128_S1600000x1_S1600000x128_1_0_0_1
      (broadcastInDim S100000x128 ![] bcast_S_S100000x128 (constant (F := Ideal) S_ .f32 0x00000000#32))
      (dstCol e)
      (Host.gather gather_S100000x128_S1600000x1_S1600000x128_1_0_n_n_0_1_1128 h (srcCol e)))
    (broadcastInDim S100000x128 ![0, 1] bcast_S100000x1_S100000x128_0_1
      (broadcastInDim S100000x1 ![0] bcast_S100000_S100000x1_0 (degInv e)))

end Cert.KernelIdeal.Sage

end
-- ==== Proof.Spec.lean ====
/-
  The whole model as one function of its ten arguments.

  hidden = update(x, mean of x over each node's arriving edges; Ws1, Wn1, b1), then
  out    = head(update(hidden, mean of hidden over the arriving edges; Ws2, Wn2, b2); Wc, bc).
  Both programs compute this function: the kernel program forms the two updates block of rows by block of rows in
  two regions and the means on the host between them, the reference forms everything on the host.
-/
import proofs.«133964_j56530359550767_1_alg».proof.Proof.Glue
import proofs.«133964_j56530359550767_1_alg».proof.Proof.LibSageUpdate

noncomputable section

namespace Cert.KernelIdeal.Sage

open Idealize.ShloMosaic Cert.KernelIdeal Cert.Dense Cert.SageUpdate

/-- The first layer's hidden features. -/
def hiddenOf (x : Mat 100000 64) (e : Edges) (ws1 wn1 : Mat 64 128) (b1 : Row 128) : Mat 100000 128 :=
  upd x (nmean64 x e) ws1 wn1 b1

/-- The model's output. -/
def model (x : Mat 100000 64) (e : Edges) (ws1 wn1 : Mat 64 128) (b1 : Row 128) (ws2 wn2 : Mat 128 64) (b2 : Row 64)
    (wc : Mat 64 20) (bc : Row 20) : Mat 100000 20 :=
  head (upd (hiddenOf x e ws1 wn1 b1) (nmean128 (hiddenOf x e ws1 wn1 b1) e) ws2 wn2 b2) wc bc

end Cert.KernelIdeal.Sage

end
-- ==== Proof.NamedRun.lean ====
/-
  The run of the idealized kernel program with its result named.

  The program is four segments: host operations, the first layer's region, host operations, the second layer's
  region. At each boundary the buffers' contents are a fold from the launch memory: a stretch of host operations
  applies them, a region leaves its output array at what its blocks' write-backs leave and every other buffer as
  entered. Every weakly fair execution terminates, and in the final state every buffer the program leaves in
  place holds the last boundary's contents: so the result buffer holds those contents, and the arguments are as
  launched.
-/
import proofs.«133964_j56530359550767_1_alg».proof.Proof.Gen.KernelIdeal.Frame

set_option maxRecDepth 16384

noncomputable section

namespace Cert.KernelIdeal.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument as launched. -/
theorem run_named : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Sage

end
-- ==== Proof.Boundary.lean ====
/-
  The kernel program's result as the model of its arguments.

  The buffers' contents at the four boundaries of the program are a fold from the launch memory. Read at the
  buffers that matter: the first region is entered with the node features and weights as launched and the
  neighbourhood mean of the features; it leaves the hidden features in its output; the host operations between the
  regions recompute the edge columns' wrap and form the neighbourhood mean of the hidden features, reusing the
  destination column, the source row and the reciprocal degrees of the first stretch, which the first region did not
  touch; the second region is entered with those and leaves the head of the second update: the model's output.
-/
import proofs.«133964_j56530359550767_1_alg».proof.Proof.Region1
import proofs.«133964_j56530359550767_1_alg».proof.Proof.Spec
import proofs.«133964_j56530359550767_1_alg».proof.Proof.NamedRun
import Idealize.ShloMosaic.Lib.StableHlo.Run

set_option maxRecDepth 16384

noncomputable section

namespace Cert.KernelIdeal.Sage

open Idealize.ShloMosaic Idealize.ShloMosaic.TcCoe Idealize.SL.Sem Idealize.ShloMosaic.StableHlo
open Cert.KernelIdeal Cert.KernelIdeal.Gen Cert.Dense Cert.SageUpdate

variable (m : (ℓ : Loc nD τ sig) → Buf (Elt Ideal) ℓ) (ρ : Dev nD → PrngReg)

/-! ## The first region's entry: the first stretch of host operations applied to the launch memory -/

set_option maxHeartbeats 4000000 in
theorem entry0_arg0 (c : Dev nD) : V1 m ρ c main_arg0 = m ((c.tc : Thread nD τ).loc main_arg0) := by
  show StableHlo.after hostOps0 (W0 m ρ c) (Proc.devRef .tc main_arg0) = _
  after_results_simp
set_option maxHeartbeats 4000000 in
theorem entry0_arg2 (c : Dev nD) : V1 m ρ c main_arg2 = m ((c.tc : Thread nD τ).loc main_arg2) := by
  show StableHlo.after hostOps0 (W0 m ρ c) (Proc.devRef .tc main_arg2) = _
  after_results_simp
set_option maxHeartbeats 4000000 in
theorem entry0_arg3 (c : Dev nD) : V1 m ρ c main_arg3 = m ((c.tc : Thread nD τ).loc main_arg3) := by
  show StableHlo.after hostOps0 (W0 m ρ c) (Proc.devRef .tc main_arg3) = _
  after_results_simp
set_option maxHeartbeats 4000000 in
theorem entry0_arg4 (c : Dev nD) : V1 m ρ c main_arg4 = m ((c.tc : Thread nD τ).loc main_arg4) := by
  show StableHlo.after hostOps0 (W0 m ρ c) (Proc.devRef .tc main_arg4) = _
  after_results_simp

set_option maxHeartbeats 4000000 in
/-- The second row operand of the first region is the neighbourhood mean of the node features. -/
theorem entry0_v24 (c : Dev nD) : V1 m ρ c main_v24
    = nmean64 (m ((c.tc : Thread nD τ).loc main_arg0)) (m ((c.tc : Thread nD τ).loc main_arg1)) := by
  show StableHlo.after hostOps0 (W0 m ρ c) (Proc.devRef .tc main_v24) = _
  after_results_simp
  rfl

set_option maxHeartbeats 4000000 in
theorem first_v1 (c : Dev nD) : W1 m ρ c (Proc.devRef .tc main_v1) = srcRow (m ((c.tc : Thread nD τ).loc main_arg1)) := by
  show StableHlo.after hostOps0 (W0 m ρ c) (Proc.devRef .tc main_v1) = _
  after_results_simp
  rfl
set_option maxHeartbeats 4000000 in
theorem first_v3 (c : Dev nD) : W1 m ρ c (Proc.devRef .tc main_v3) = dstRow (m ((c.tc : Thread nD τ).loc main_arg1)) := by
  show StableHlo.after hostOps0 (W0 m ρ c) (Proc.devRef .tc main_v3) = _
  after_results_simp
  rfl
set_option maxHeartbeats 4000000 in
theorem first_v11 (c : Dev nD) : W1 m ρ c (Proc.devRef .tc main_v11) = degInv (m ((c.tc : Thread nD τ).loc main_arg1)) := by
  show StableHlo.after hostOps0 (W0 m ρ c) (Proc.devRef .tc main_v11) = _
  after_results_simp
  rfl

set_option maxHeartbeats 4000000 in
theorem first_arg5 (c : Dev nD) : W1 m ρ c (Proc.devRef .tc main_arg5) = m ((c.tc : Thread nD τ).loc main_arg5) := by
  show StableHlo.after hostOps0 (W0 m ρ c) (Proc.devRef .tc main_arg5) = _
  after_results_simp
set_option maxHeartbeats 4000000 in
theorem first_arg6 (c : Dev nD) : W1 m ρ c (Proc.devRef .tc main_arg6) = m ((c.tc : Thread nD τ).loc main_arg6) := by
  show StableHlo.after hostOps0 (W0 m ρ c) (Proc.devRef .tc main_arg6) = _
  after_results_simp
set_option maxHeartbeats 4000000 in
theorem first_arg7 (c : Dev nD) : W1 m ρ c (Proc.devRef .tc main_arg7) = m ((c.tc : Thread nD τ).loc main_arg7) := by
  show StableHlo.after hostOps0 (W0 m ρ c) (Proc.devRef .tc main_arg7) = _
  after_results_simp
set_option maxHeartbeats 4000000 in
theorem first_arg8 (c : Dev nD) : W1 m ρ c (Proc.devRef .tc main_arg8) = m ((c.tc : Thread nD τ).loc main_arg8) := by
  show StableHlo.after hostOps0 (W0 m ρ c) (Proc.devRef .tc main_arg8) = _
  after_results_simp
set_option maxHeartbeats 4000000 in
theorem first_arg9 (c : Dev nD) : W1 m ρ c (Proc.devRef .tc main_arg9) = m ((c.tc : Thread nD τ).loc main_arg9) := by
  show StableHlo.after hostOps0 (W0 m ρ c) (Proc.devRef .tc main_arg9) = _
  after_results_simp

/-! ## The first region's exit: its output at the hidden features, every other buffer as entered -/

/-- The first region leaves the hidden features in its output array. -/
theorem exit0_v25 (c : Dev nD) : W2 m ρ c (Proc.devRef .tc main_v25)
    = hiddenOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (W2_arr m ρ c 5).trans ((final0 (V1 m ρ) c).trans ?_)
  unfold layer1 hiddenOf
  rw [entry0_arg0, entry0_v24, entry0_arg2, entry0_arg3, entry0_arg4]

theorem exit0_v1 (c : Dev nD) : W2 m ρ c (Proc.devRef .tc main_v1) = srcRow (m ((c.tc : Thread nD τ).loc main_arg1)) :=
  (W2_of_ne m ρ c main_v1 (by decide)).trans (first_v1 m ρ c)
theorem exit0_v3 (c : Dev nD) : W2 m ρ c (Proc.devRef .tc main_v3) = dstRow (m ((c.tc : Thread nD τ).loc main_arg1)) :=
  (W2_of_ne m ρ c main_v3 (by decide)).trans (first_v3 m ρ c)
theorem exit0_v11 (c : Dev nD) : W2 m ρ c (Proc.devRef .tc main_v11) = degInv (m ((c.tc : Thread nD τ).loc main_arg1)) :=
  (W2_of_ne m ρ c main_v11 (by decide)).trans (first_v11 m ρ c)
theorem exit0_arg5 (c : Dev nD) : W2 m ρ c (Proc.devRef .tc main_arg5) = m ((c.tc : Thread nD τ).loc main_arg5) :=
  (W2_of_ne m ρ c main_arg5 (by decide)).trans (first_arg5 m ρ c)
theorem exit0_arg6 (c : Dev nD) : W2 m ρ c (Proc.devRef .tc main_arg6) = m ((c.tc : Thread nD τ).loc main_arg6) :=
  (W2_of_ne m ρ c main_arg6 (by decide)).trans (first_arg6 m ρ c)
theorem exit0_arg7 (c : Dev nD) : W2 m ρ c (Proc.devRef .tc main_arg7) = m ((c.tc : Thread nD τ).loc main_arg7) :=
  (W2_of_ne m ρ c main_arg7 (by decide)).trans (first_arg7 m ρ c)
theorem exit0_arg8 (c : Dev nD) : W2 m ρ c (Proc.devRef .tc main_arg8) = m ((c.tc : Thread nD τ).loc main_arg8) :=
  (W2_of_ne m ρ c main_arg8 (by decide)).trans (first_arg8 m ρ c)
theorem exit0_arg9 (c : Dev nD) : W2 m ρ c (Proc.devRef .tc main_arg9) = m ((c.tc : Thread nD τ).loc main_arg9) :=
  (W2_of_ne m ρ c main_arg9 (by decide)).trans (first_arg9 m ρ c)

/-! ## The second region's entry: the second stretch of host operations applied to the first region's exit -/

set_option maxHeartbeats 4000000 in
theorem entry1_v25 (c : Dev nD) : V3 m ρ c main_v25
    = hiddenOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  show StableHlo.after hostOps1 (W2 m ρ c) (Proc.devRef .tc main_v25) = _
  after_results_simp
  exact exit0_v25 m ρ c

set_option maxHeartbeats 4000000 in
/-- The second row operand of the second region is the neighbourhood mean of the hidden features. -/
theorem entry1_v38 (c : Dev nD) : V3 m ρ c main_v38
    = nmean128 (hiddenOf (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
      (m ((c.tc : Thread nD τ).loc main_arg1)) := by
  show StableHlo.after hostOps1 (W2 m ρ c) (Proc.devRef .tc main_v38) = _
  after_results_simp
  rw [exit0_v1, exit0_v3, exit0_v11, exit0_v25]
  rfl

set_option maxHeartbeats 4000000 in
theorem entry1_arg5 (c : Dev nD) : V3 m ρ c main_arg5 = m ((c.tc : Thread nD τ).loc main_arg5) := by
  show StableHlo.after hostOps1 (W2 m ρ c) (Proc.devRef .tc main_arg5) = _
  after_results_simp
  exact exit0_arg5 m ρ c
set_option maxHeartbeats 4000000 in
theorem entry1_arg6 (c : Dev nD) : V3 m ρ c main_arg6 = m ((c.tc : Thread nD τ).loc main_arg6) := by
  show StableHlo.after hostOps1 (W2 m ρ c) (Proc.devRef .tc main_arg6) = _
  after_results_simp
  exact exit0_arg6 m ρ c
set_option maxHeartbeats 4000000 in
theorem entry1_arg7 (c : Dev nD) : V3 m ρ c main_arg7 = m ((c.tc : Thread nD τ).loc main_arg7) := by
  show StableHlo.after hostOps1 (W2 m ρ c) (Proc.devRef .tc main_arg7) = _
  after_results_simp
  exact exit0_arg7 m ρ c
set_option maxHeartbeats 4000000 in
theorem entry1_arg8 (c : Dev nD) : V3 m ρ c main_arg8 = m ((c.tc : Thread nD τ).loc main_arg8) := by
  show StableHlo.after hostOps1 (W2 m ρ c) (Proc.devRef .tc main_arg8) = _
  after_results_simp
  exact exit0_arg8 m ρ c
set_option maxHeartbeats 4000000 in
theorem entry1_arg9 (c : Dev nD) : V3 m ρ c main_arg9 = m ((c.tc : Thread nD τ).loc main_arg9) := by
  show StableHlo.after hostOps1 (W2 m ρ c) (Proc.devRef .tc main_arg9) = _
  after_results_simp
  exact exit0_arg9 m ρ c

/-! ## The result -/

/-- The last boundary's contents at the result buffer: the model of the launch arguments. -/
theorem result_eq (c : Dev nD) : W4 m ρ c (Proc.devRef .tc main_v39)
    = model (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  refine (W4_arr m ρ c 7).trans ((final1 (V3 m ρ) c).trans ?_)
  unfold layer2 hidden2 model
  rw [entry1_v25, entry1_v38, entry1_arg5, entry1_arg6, entry1_arg7, entry1_arg8, entry1_arg9]

/-- The kernel program's run: every weakly fair execution terminates, nothing faulting, with the model of the
    arguments in the result buffer and the arguments as launched. -/
theorem run : θ_run defs (onTc (τ := τ) (main (F := Ideal))) ⟨m, fun _ => 0, ρ⟩ (fun r => ∀ c : Dev nD,
      r.2.mem ((c.tc : Thread nD τ).loc main_v39)
        = model (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_named m ρ)

end Cert.KernelIdeal.Sage

end
-- ==== Proof.RefValue.lean ====
/-
  The reference's result as the model of its arguments.

  The reference's run ends with its result at the composed term of its host operations. The three dot products
  are plain matrix products; a layer's lines — two products added, the bias broadcast in two steps, the maximum with
  a broadcast zero — are the update, and the last product plus its bias is the head. What is left between them, the
  degree count and the two neighbourhood means, is the kernel program's host text operation for operation, so the
  term is the model.
-/
import proofs.«133964_j56530359550767_1_alg».proof.Proof.Gen.ReferenceIdeal.Run
import proofs.«133964_j56530359550767_1_alg».proof.Proof.Spec

set_option maxRecDepth 16384

noncomputable section

namespace Cert.ReferenceIdeal.Sage

open Idealize.ShloMosaic Idealize.ShloMosaic.TcCoe Idealize.SL.Sem
open Cert.ReferenceIdeal Cert.ReferenceIdeal.Gen Cert.Dense Cert.SageUpdate

theorem dot_first : dot_S100000x64_S64x128_S100000x128_1_0_0_1_n_n = DotDims.plain 100000 64 128 := rfl
theorem dot_second : dot_S100000x128_S128x64_S100000x64_1_0_0_1_n_n = DotDims.plain 100000 128 64 := rfl
theorem dot_head : dot_S100000x64_S64x20_S100000x20_1_0_0_1_n_n = DotDims.plain 100000 64 20 := rfl

variable (m : (ℓ : Loc nD τ sig) → Buf (Elt Ideal) ℓ)

set_option maxHeartbeats 4000000 in
/-- The reference's result term is the model of the launch arguments. -/
theorem result_eq (c : Dev nD) : Cert.ReferenceIdeal.Value.res_out0 m c
    = Cert.KernelIdeal.Sage.model (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  unfold Cert.ReferenceIdeal.Value.res_out0 Cert.ReferenceIdeal.Value.res_main_v55
  rw [dot_first, dot_second, dot_head]
  rw [host_head, host_upd, host_upd]
  rfl

end Cert.ReferenceIdeal.Sage

end
-- ==== Proof.lean ====
/-
  A two-layer mean-aggregating graph network with a linear head, computed two ways, is one function on the
  extended reals.

  Both programs count each node's arriving edges, take the reciprocal of that count clipped below at one, and
  twice form   max((f·Ws + mean(f)·Wn) + b, 0)   — f the node features, then the hidden features; mean(f) the sum
  of the source rows over a node's arriving edges times the reciprocal count — and finish with   h·Wc + bc.
  The kernel program forms each update block of 5000 rows by block in a pipelined region (the second region
  also applies the head) and the edge sums on the host around the regions; the reference forms everything on the
  host. On the extended reals a change of float format is the identity, a product into a zero accumulator and a
  general dot product are the same sum, and an entry of an update or of the head depends on its own row of the
  row operands only, so the blocks are the rows of the whole result. The two sides apply the same operations in
  the same order and grouping: no law of arithmetic is needed to join them, and no finiteness of the inputs.

  The frames of the two kernel programs are the generated ones; the reference's frame is its generated run with
  the result dropped; the idealization rewrote nothing, so there is nothing to preserve.
-/
import proofs.«133964_j56530359550767_1_alg».proof.Defs
import proofs.«133964_j56530359550767_1_alg».proof.Proof.Gen.Kernel
import proofs.«133964_j56530359550767_1_alg».proof.Proof.Gen.Kernel.Skeleton
import proofs.«133964_j56530359550767_1_alg».proof.Proof.Gen.Kernel.Launch
import proofs.«133964_j56530359550767_1_alg».proof.Proof.Gen.Kernel.Points
import proofs.«133964_j56530359550767_1_alg».proof.Proof.Gen.Kernel.Frame
import proofs.«133964_j56530359550767_1_alg».proof.Proof.Gen.KernelIdeal
import proofs.«133964_j56530359550767_1_alg».proof.Proof.Gen.KernelIdeal.Skeleton
import proofs.«133964_j56530359550767_1_alg».proof.Proof.Gen.KernelIdeal.Launch
import proofs.«133964_j56530359550767_1_alg».proof.Proof.Gen.KernelIdeal.Points
import proofs.«133964_j56530359550767_1_alg».proof.Proof.Gen.KernelIdeal.Frame
import proofs.«133964_j56530359550767_1_alg».proof.Proof.Gen.ReferenceIdeal
import proofs.«133964_j56530359550767_1_alg».proof.Proof.Gen.ReferenceIdeal.Run
import proofs.«133964_j56530359550767_1_alg».proof.Proof.Gen.ReferenceIdeal.Read
import proofs.«133964_j56530359550767_1_alg».proof.Proof.Gen.Pre_finite_inputs
import proofs.«133964_j56530359550767_1_alg».proof.Proof.Boundary
import proofs.«133964_j56530359550767_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the model of those arguments in
    their result buffers. -/
theorem algebraic : Cert.algebraic_KernelIdeal_ReferenceIdeal := by
  intro m ρ m' ρ' _ hagree
  refine ⟨_, Cert.KernelIdeal.Sage.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  refine (Cert.ReferenceIdeal.Sage.result_eq m' c).trans ?_
  rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
